-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S256x10 .f32) (main_arg9 : FVec F S10 .f32) (main_v33 : IVec S_ 1) : IVec S_ 1 :=
  let main_v34 : FVec F S256x10 .f32 := Host.absf main_arg8
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x10 .f32) (main_arg9 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x640000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x10 .f32) (main_arg9 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x256 : Shape := ⟨2, ![100000, 256]⟩
abbrev S2000x128 : Shape := ⟨2, ![2000, 128]⟩
abbrev S2000x256 : Shape := ⟨2, ![2000, 256]⟩
abbrev S1x256 : Shape := ⟨2, ![1, 256]⟩
abbrev S640000x256 : Shape := ⟨2, ![640000, 256]⟩
abbrev S100000x10 : Shape := ⟨2, ![100000, 10]⟩
abbrev S2000x10 : Shape := ⟨2, ![2000, 10]⟩
abbrev S1x10 : Shape := ⟨2, ![1, 10]⟩

abbrev nBuf : Space → Nat
  | .hbm => 42
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x10, .f32⟩
  | .hbm, ⟨9, _⟩ => ⟨S10, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S100000x256, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x256, .f32⟩
  | .hbm, ⟨37, _⟩ => ⟨S_, .f32⟩
  | .hbm, ⟨38, _⟩ => ⟨S100000x256, .f32⟩
  | .hbm, ⟨39, _⟩ => ⟨S640000x1, .i32⟩
  | .hbm, ⟨40, _⟩ => ⟨S100000x256, .f32⟩
  | .hbm, ⟨41, _⟩ => ⟨S100000x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S256, .f32⟩
  | .local _ .vmem, ⟨16, _⟩ => ⟨S256x10, .f32⟩
  | .local _ .vmem, ⟨17, _⟩ => ⟨S10, .f32⟩
  | .local _ .vmem, ⟨18, _⟩ => ⟨S2000x10, .f32⟩
  | .local _ .vmem, ⟨19, _⟩ => ⟨S2000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  shapeCasts_S2000x256_S2000x256 : S2000x256.ShapeCasts S2000x256
  inb_S256x10_S256x10_0_0 : ∀ a, (![0, 0] : Fin 2 → Nat) a + S256x10.size a ≤ S256x10.size a
  h_S256x10 : 0 < S256x10.numel
  inb_S10_S10_0 : ∀ a, (![0] : Fin 1 → Nat) a + S10.size a ≤ S10.size a
  h_S10 : 0 < S10.numel
  shapeCasts_S10_S1x10 : S10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S2000x256_S256x10_S2000x10_1_0_0_1_n_n_wf : DotDims.WF S2000x256 S256x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x10.size a ≤ S256x10.size a
  hwx1_4 : ∀ i : grid1.Coords, EltTy.bits .f32 = 32 ∨ (Rect.block (s := S256x10) S256x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10.size a ≤ S10.size a
  hwx1_5 : ∀ i : grid1.Coords, EltTy.bits .f32 = 32 ∨ (Rect.block (s := S10) S10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x10.size a ≤ S100000x10.size a
  hwx1_6 : ∀ i : grid1.Coords, EltTy.bits .f32 = 32 ∨ (Rect.block (s := S100000x10) S2000x10.size (cc1_transform_6 i) (hinb1_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S2000x256_S256x10_S2000x10_1_0_0_1_n_n : DotDims S2000x256 S256x10 S2000x10 where
  lhsContracting := [1]
  rhsContracting := [0]
  lhsNonContracting := [0]
  rhsNonContracting := [1]
  lhsBatch := []
  rhsBatch := []
  wf := dot_S2000x256_S256x10_S2000x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S2000x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x256 : Shape := ⟨2, ![100000, 256]⟩
abbrev S1x256 : Shape := ⟨2, ![1, 256]⟩
abbrev S640000x256 : Shape := ⟨2, ![640000, 256]⟩
abbrev S100000x10 : Shape := ⟨2, ![100000, 10]⟩
abbrev S1x10 : Shape := ⟨2, ![1, 10]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x10, .f32⟩
  | .hbm, ⟨9, _⟩ => ⟨S10, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S100000x128, .f32⟩
  | .hbm, ⟨28, _⟩ => ⟨S100000x256, .f32⟩
  | .hbm, ⟨29, _⟩ => ⟨S1x256, .f32⟩
  | .hbm, ⟨30, _⟩ => ⟨S100000x256, .f32⟩
  | .hbm, ⟨31, _⟩ => ⟨S100000x256, .f32⟩
  | .hbm, ⟨32, _⟩ => ⟨S_, .f32⟩
  | .hbm, ⟨33, _⟩ => ⟨S100000x256, .f32⟩
  | .hbm, ⟨34, _⟩ => ⟨S100000x256, .f32⟩
  | .hbm, ⟨35, _⟩ => ⟨S100000x256, .f32⟩
  | .hbm, ⟨36, _⟩ => ⟨S1x256, .f32⟩
  | .hbm, ⟨37, _⟩ => ⟨S100000x256, .f32⟩
  | .hbm, ⟨38, _⟩ => ⟨S100000x256, .f32⟩
  | .hbm, ⟨39, _⟩ => ⟨S_, .f32⟩
  | .hbm, ⟨40, _⟩ => ⟨S100000x256, .f32⟩
  | .hbm, ⟨41, _⟩ => ⟨S100000x256, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S100000x256, .f32⟩
  | .hbm, ⟨53, _⟩ => ⟨S640000x1, .i32⟩
  | .hbm, ⟨54, _⟩ => ⟨S100000x256, .f32⟩
  | .hbm, ⟨55, _⟩ => ⟨S100000x256, .f32⟩
  | .hbm, ⟨56, _⟩ => ⟨S100000x256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S_, .f32⟩
  | .hbm, ⟨61, _⟩ => ⟨S100000x256, .f32⟩
  | .hbm, ⟨62, _⟩ => ⟨S100000x256, .f32⟩
  | .hbm, ⟨63, _⟩ => ⟨S100000x10, .f32⟩
  | .hbm, ⟨64, _⟩ => ⟨S1x10, .f32⟩
  | .hbm, ⟨65, _⟩ => ⟨S100000x10, .f32⟩
  | .hbm, ⟨66, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x10_S100000x10_1_0_0_1_n_n_wf : DotDims.WF S100000x256 S256x10 S100000x10 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x10_S100000x10_1_0_0_1_n_n : DotDims S100000x256 S256x10 S100000x10 where
  lhsContracting := [1]
  rhsContracting := [0]
  lhsNonContracting := [0]
  rhsNonContracting := [1]
  lhsBatch := []
  rhsBatch := []
  wf := dot_S100000x256_S256x10_S100000x10_1_0_0_1_n_n_wf

class Facts : Prop extends Facts₀ where

variable [Facts]
-- ==== Proof.Spec.lean ====
/-
  The graph network as one function of its argument arrays.

  A GIN layer replaces every node's feature row by a two-layer perceptron of the row plus the sum of the rows
  of the node's in-neighbours.  The neighbour sum is the edge list read as two index columns — the sources
  (with the wrap of negative entries by the node count) gathered, the destinations scattered onto zeros.
  The perceptron is  max(z·Wa + ba, 0)·Wb + bb ; the first layer ends in a further max with 0, the second does not.
  Everything is written with whole-array operations on the extended reals, so that both programs can be
  compared with it entry by entry.
-/
import proofs.«103966_j32512902431423_1_alg».proof.Proof.Gen.ReferenceIdeal
import Idealize.ShloMosaic.PureOps.Ideal

noncomputable section

namespace Cert.Gin

open Idealize.ShloMosaic Cert.ReferenceIdeal Cert.ReferenceIdeal.Gen

/-- Row 0 of the edge list (the source node of every edge), a negative entry wrapped by the node count,
    as an [E, 1] column of row indices. -/
def srcCol (ei : IVec S2x640000 32) : IVec S640000x1 32 :=
  broadcastInDim S640000x1 ![0] bcast_S640000_S640000x1_0
    (select
      (cmpi .slt (shapeCast _ (extractStridedSlice S1x640000 ![0, 0] ei slices_S2x640000_S1x640000_0_0) shapeCasts_S1x640000_S640000)
        (broadcastInDim S640000 ![] bcast_S_S640000 (constantI S_ 32 0#32)))
      (addi (shapeCast _ (extractStridedSlice S1x640000 ![0, 0] ei slices_S2x640000_S1x640000_0_0) shapeCasts_S1x640000_S640000)
        (broadcastInDim S640000 ![] bcast_S_S640000 (constantI S_ 32 100000#32)))
      (shapeCast _ (extractStridedSlice S1x640000 ![0, 0] ei slices_S2x640000_S1x640000_0_0) shapeCasts_S1x640000_S640000))

/-- Row 1 of the edge list (the destination node of every edge) as an [E, 1] column of row indices. -/
def dstCol (ei : IVec S2x640000 32) : IVec S640000x1 32 :=
  broadcastInDim S640000x1 ![0] bcast_S640000_S640000x1_0
    (shapeCast _ (extractStridedSlice S1x640000 ![1, 0] ei slices_S2x640000_S1x640000_1_0) shapeCasts_S1x640000_S640000)

/-- The neighbour sum of 128-wide rows: row n is the sum of the rows x[src e] over the edges e with dst e = n. -/
def nbrSum128 (x : FVec Ideal S100000x128 .f32) (ei : IVec S2x640000 32) : FVec Ideal S100000x128 .f32 :=
  Host.scatterAdd (F := Ideal) scatter_S100000x128_S640000x1_S640000x128_1_0_0_1
    (broadcastInDim S100000x128 ![] bcast_S_S100000x128 (constant (F := Ideal) S_ .f32 0x00000000#32))
    (dstCol ei)
    (Host.gather gather_S100000x128_S640000x1_S640000x128_1_0_n_n_0_1_1128 x (srcCol ei))

/-- The neighbour sum of 256-wide rows. -/
def nbrSum256 (h : FVec Ideal S100000x256 .f32) (ei : IVec S2x640000 32) : FVec Ideal S100000x256 .f32 :=
  Host.scatterAdd (F := Ideal) scatter_S100000x256_S640000x1_S640000x256_1_0_0_1
    (broadcastInDim S100000x256 ![] bcast_S_S100000x256 (constant (F := Ideal) S_ .f32 0x00000000#32))
    (dstCol ei)
    (Host.gather gather_S100000x256_S640000x1_S640000x256_1_0_n_n_0_1_1256 h (srcCol ei))

/-- The first perceptron on the rows of `x + a`: max(max((x + a)·Wa + ba, 0)·Wb + bb, 0). -/
def mlpFirst (x a : FVec Ideal S100000x128 .f32) (Wa : FVec Ideal S128x256 .f32) (ba : FVec Ideal S256 .f32)
    (Wb : FVec Ideal S256x256 .f32) (bb : FVec Ideal S256 .f32) : FVec Ideal S100000x256 .f32 :=
  maximumf
    (addf
      (Host.dotGeneral (F := Ideal) dot_S100000x256_S256x256_S100000x256_1_0_0_1_n_n none
        (maximumf
          (addf
            (Host.dotGeneral (F := Ideal) dot_S100000x128_S128x256_S100000x256_1_0_0_1_n_n none (addf x a) Wa)
            (broadcastInDim S100000x256 ![0, 1] bcast_S1x256_S100000x256_0_1 (broadcastInDim S1x256 ![1] bcast_S256_S1x256_1 ba)))
          (broadcastInDim S100000x256 ![] bcast_S_S100000x256 (constant (F := Ideal) S_ .f32 0x00000000#32)))
        Wb)
      (broadcastInDim S100000x256 ![0, 1] bcast_S1x256_S100000x256_0_1 (broadcastInDim S1x256 ![1] bcast_S256_S1x256_1 bb)))
    (broadcastInDim S100000x256 ![] bcast_S_S100000x256 (constant (F := Ideal) S_ .f32 0x00000000#32))

/-- The second perceptron on the rows of `h + a`: max((h + a)·Wa + ba, 0)·Wb + bb. -/
def mlpSecond (h a : FVec Ideal S100000x256 .f32) (Wa : FVec Ideal S256x256 .f32) (ba : FVec Ideal S256 .f32)
    (Wb : FVec Ideal S256x10 .f32) (bb : FVec Ideal S10 .f32) : FVec Ideal S100000x10 .f32 :=
  addf
    (Host.dotGeneral (F := Ideal) dot_S100000x256_S256x10_S100000x10_1_0_0_1_n_n none
      (maximumf
        (addf
          (Host.dotGeneral (F := Ideal) dot_S100000x256_S256x256_S100000x256_1_0_0_1_n_n none (addf h a) Wa)
          (broadcastInDim S100000x256 ![0, 1] bcast_S1x256_S100000x256_0_1 (broadcastInDim S1x256 ![1] bcast_S256_S1x256_1 ba)))
        (broadcastInDim S100000x256 ![] bcast_S_S100000x256 (constant (F := Ideal) S_ .f32 0x00000000#32)))
      Wb)
    (broadcastInDim S100000x10 ![0, 1] bcast_S1x10_S100000x10_0_1 (broadcastInDim S1x10 ![1] bcast_S10_S1x10_1 bb))

/-- The hidden node features: the first GIN layer. -/
def hidden (x : FVec Ideal S100000x128 .f32) (ei : IVec S2x640000 32) (W1a : FVec Ideal S128x256 .f32) (b1a : FVec Ideal S256 .f32)
    (W1b : FVec Ideal S256x256 .f32) (b1b : FVec Ideal S256 .f32) : FVec Ideal S100000x256 .f32 :=
  mlpFirst x (nbrSum128 x ei) W1a b1a W1b b1b

/-- The network: the second GIN layer on the hidden features. -/
def net (x : FVec Ideal S100000x128 .f32) (ei : IVec S2x640000 32) (W1a : FVec Ideal S128x256 .f32) (b1a : FVec Ideal S256 .f32)
    (W1b : FVec Ideal S256x256 .f32) (b1b : FVec Ideal S256 .f32) (W2a : FVec Ideal S256x256 .f32) (b2a : FVec Ideal S256 .f32)
    (W2b : FVec Ideal S256x10 .f32) (b2b : FVec Ideal S10 .f32) : FVec Ideal S100000x10 .f32 :=
  mlpSecond (hidden x ei W1a b1a W1b b1b) (nbrSum256 (hidden x ei W1a b1a W1b b1b) ei) W2a b2a W2b b2b

end Cert.Gin

end
-- ==== Proof.RefSide.lean ====
/-
  The reference program computes the network: its result, as the composed term of its host operations,
  unfolds to `Cert.Gin.net` of the argument arrays.
-/
import proofs.«103966_j32512902431423_1_alg».proof.Proof.Spec
import proofs.«103966_j32512902431423_1_alg».proof.Proof.Gen.ReferenceIdeal.Run

noncomputable section

namespace Cert.Gin

open Idealize.ShloMosaic Idealize.ShloMosaic.TcCoe Idealize.SL.Sem Cert.ReferenceIdeal Cert.ReferenceIdeal.Gen

set_option maxRecDepth 16384 in
/-- The reference's result is the network of its arguments. -/
theorem reference_eq (m : (ℓ : Loc nD τ sig) → Buf (Elt Ideal) ℓ) (c : Dev nD) :
    Cert.ReferenceIdeal.Value.res_main_v44 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v44 net hidden mlpSecond mlpFirst nbrSum256 nbrSum128 srcCol dstCol
  rfl

end Cert.Gin

end
-- ==== Proof.KernelRun.lean ====
/-
  The run of the kernel program with every buffer named.

  The program is four segments — host operations, the first kernel, host operations, the second kernel — and its
  frame certificate chains the buffer contents through them: W0 at launch, W1 at the first kernel's entry, W2 at
  its exit, W3 at the second kernel's entry, W4 at the end.  Here the same chain is read to the end for EVERY
  unscoped buffer, not only for the arguments: each ends at W4.
-/
import proofs.«103966_j32512902431423_1_alg».proof.Proof.Gen.KernelIdeal.Frame

set_option maxRecDepth 16384

noncomputable section

namespace Cert.Gin.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer at the end of the run. -/
theorem result_eq (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_v25) = W4 m ρ c (Proc.devRef .tc main_v25) :=
  h c _ (mem_uc main_v25 (by decide))

/-- The arguments at the end of the run are as launched. -/
theorem args_eq (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c),
   (h c _ (mem_uc main_arg4 (by decide))).trans (W4_main_arg4 m ρ c),
   (h c _ (mem_uc main_arg5 (by decide))).trans (W4_main_arg5 m ρ c),
   (h c _ (mem_uc main_arg6 (by decide))).trans (W4_main_arg6 m ρ c),
   (h c _ (mem_uc main_arg7 (by decide))).trans (W4_main_arg7 m ρ c),
   (h c _ (mem_uc main_arg8 (by decide))).trans (W4_main_arg8 m ρ c),
   (h c _ (mem_uc main_arg9 (by decide))).trans (W4_main_arg9 m ρ c)⟩

end Cert.Gin.Run

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«103966_j32512902431423_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibTwoLayerRows.lean ====
/-
  Two dense layers on a block of rows, at the ideal values.

  A perceptron  z ↦ max(z·Wa + ba, 0)·Wb + bb  (optionally followed by a last max with a constant) applied to every
  row of an [N, K] array can be computed one block of R consecutive rows at a time: the block's rows of the input
  (here a sum of two arrays) meet the whole weight matrices and one-row biases, and the matrix products run on
  operands first narrowed to another float format — the identity on the extended reals.  Each theorem says: the
  block computation read at an entry y equals the whole-array host computation read where y sits in the array.
  A block of rows is described by an embedding of its entries that shifts the row by an offset and keeps the column.
-/
import Idealize.ShloMosaic.PureOps.Ideal.Laws
import Idealize.ShloMosaic.Lib.ValueIdx
import Idealize.ShloMosaic.Lib.Pipeline.Value
import proofs.«103966_j32512902431423_1_alg».proof.Proof.LibRowBlocks

noncomputable section

namespace Cert.Lib.TwoLayerRows

open Idealize.ShloMosaic Idealize.ShloMosaic.ValueIdx Cert.Lib.PlainDot Cert.Bridge
open scoped BigOperators

variable {R N K H C : Nat}

/-- An embedding of the entries of an [R, C] block into an [N, C] array as rows o … o + R − 1, columns kept. -/
structure RowEmb {C : Nat} (e : (⟨2, ![R, C]⟩ : Shape).Idx → (⟨2, ![N, C]⟩ : Shape).Idx) (o : Nat) : Prop where
  row : ∀ j, (e j 0).val = o + (j 0).val
  col : ∀ j, (e j 1).val = (j 1).val

/-- Entry (r, k) of the left block sits in the array's row of the output entry (r, c), column k. -/
theorem RowEmb.rowIdx_eq {eK : (⟨2, ![R, K]⟩ : Shape).Idx → (⟨2, ![N, K]⟩ : Shape).Idx}
    {eC : (⟨2, ![R, C]⟩ : Shape).Idx → (⟨2, ![N, C]⟩ : Shape).Idx} {o : Nat}
    (hK : RowEmb eK o) (hC : RowEmb eC o) (y : (⟨2, ![R, C]⟩ : Shape).Idx) (k : Fin K) :
    eK (rowIdx y k) = rowIdx (eC y) k :=
  funext fun a => Fin.ext (by
    match a with
    | ⟨0, _⟩ => exact (hK.row _).trans (hC.row y).symm
    | ⟨1, _⟩ => exact hK.col _)

/-- The right factor is whole: entry (k, c) of it is read at the column of the output entry. -/
theorem RowEmb.colIdx_eq {eC : (⟨2, ![R, C]⟩ : Shape).Idx → (⟨2, ![N, C]⟩ : Shape).Idx} {o : Nat}
    (hC : RowEmb eC o) (y : (⟨2, ![R, C]⟩ : Shape).Idx) (k : Fin K) :
    (colIdx y k : (⟨2, ![K, C]⟩ : Shape).Idx) = colIdx (eC y) k :=
  funext fun a => Fin.ext (by
    match a with
    | ⟨0, _⟩ => rfl
    | ⟨1, _⟩ => exact (hC.col y).symm)

/-- The one-row bias is whole: it is read at the column of the output entry. -/
theorem RowEmb.rowZero_eq {eC : (⟨2, ![R, C]⟩ : Shape).Idx → (⟨2, ![N, C]⟩ : Shape).Idx} {o : Nat}
    (hC : RowEmb eC o) (y : (⟨2, ![R, C]⟩ : Shape).Idx) :
    (rowZero y : (⟨2, ![1, C]⟩ : Shape).Idx) = rowZero (eC y) :=
  funext fun a => Fin.ext (by
    match a with
    | ⟨0, _⟩ => rfl
    | ⟨1, _⟩ => exact (hC.col y).symm)

/-- THE FIRST LAYER of a row block: the two input blocks added, narrowed, multiplied by the narrowed weights into
    zeros, the bias row stretched over the rows, maximum with a constant — against the host's whole arrays. -/
theorem first_layer_block {ψ : FTy} (hψ : ψ.bits < FTy.f32.bits)
    (d : DotDims ⟨2, ![R, K]⟩ ⟨2, ![K, H]⟩ ⟨2, ![R, H]⟩) (hd : d = DotDims.plain R K H)
    (D : DotDims ⟨2, ![N, K]⟩ ⟨2, ![K, H]⟩ ⟨2, ![N, H]⟩) (hD : D = DotDims.plain N K H)
    (prec prec' : Option ContractPrecision)
    (X A : FVec Ideal ⟨2, ![N, K]⟩ .f32) (Wa : FVec Ideal ⟨2, ![K, H]⟩ .f32) (Ba : FVec Ideal ⟨2, ![1, H]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx) (o : Nat)
    (hK : RowEmb eK o) (hH : RowEmb eH o)
    (hx0 : ∀ j, x0 j = X (eK j)) (hx1 : ∀ j, x1 j = A (eK j))
    (hb : (⟨2, ![1, H]⟩ : Shape).Broadcasts ⟨2, ![R, H]⟩)
    (hB : (⟨2, ![1, H]⟩ : Shape).BroadcastsInDim ⟨2, ![N, H]⟩ ![0, 1])
    (hZ : (⟨0, ![]⟩ : Shape).BroadcastsInDim ⟨2, ![N, H]⟩ ![]) (z : BitVec 32)
    (y : (⟨2, ![R, H]⟩ : Shape).Idx) :
    maximumf (addf (matmul d prec (truncf ψ (addf x0 x1) hψ) (truncf ψ Wa hψ) (constant ⟨2, ![R, H]⟩ .f32 0x00000000#32))
          (broadcastTo ⟨2, ![R, H]⟩ Ba hb))
        (broadcast ⟨2, ![R, H]⟩ (Scalar.ofBits (F := Ideal) .f32 z)) y
      = maximumf (addf (Host.dotGeneral D prec' (addf X A) Wa) (broadcastInDim ⟨2, ![N, H]⟩ ![0, 1] hB Ba))
        (broadcastInDim ⟨2, ![N, H]⟩ ![] hZ (constant (F := Ideal) ⟨0, ![]⟩ .f32 z)) (eH y) :=
  embed_block ψ ψ d hd D hD prec prec' (addf X A) Wa Ba (truncf ψ (addf x0 x1) hψ) (truncf ψ Wa hψ) Ba
    eK id id eH
    (fun j => by rw [truncf_apply, addf_apply, addf_apply, hx0, hx1])
    (fun j => truncf_apply Wa hψ j) (fun _ => rfl)
    (fun y k => hK.rowIdx_eq hH y k) (fun y k => hH.colIdx_eq y k) (fun y => hH.rowZero_eq y)
    hb hB hZ z y

/-- BOTH LAYERS of a row block, ending in a maximum with the constant. -/
theorem two_layers_max_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1])
    (hZB : (⟨0, ![]⟩ : Shape).BroadcastsInDim ⟨2, ![N, C]⟩ ![]) (z : BitVec 32)
    (y : (⟨2, ![R, C]⟩ : Shape).Idx) :
    maximumf (addf (matmul dB prec
            (truncf ψ (maximumf (addf (matmul dA prec (truncf ψ (addf x0 x1) hψ) (truncf ψ Wa hψ) (constant ⟨2, ![R, H]⟩ .f32 0x00000000#32))
                (broadcastTo ⟨2, ![R, H]⟩ Ba hbA)) (broadcast ⟨2, ![R, H]⟩ (Scalar.ofBits (F := Ideal) .f32 z))) hψ)
            (truncf ψ Wb hψ) (constant ⟨2, ![R, C]⟩ .f32 0x00000000#32))
          (broadcastTo ⟨2, ![R, C]⟩ Bb hbB))
        (broadcast ⟨2, ![R, C]⟩ (Scalar.ofBits (F := Ideal) .f32 z)) y
      = maximumf (addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb))
        (broadcastInDim ⟨2, ![N, C]⟩ ![] hZB (constant (F := Ideal) ⟨0, ![]⟩ .f32 z)) (eC y) :=
  embed_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB hZB z y

/-- BOTH LAYERS of a row block, the second one without a final maximum. -/
theorem two_layers_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1]) (z : BitVec 32)
    (y : (⟨2, ![R, C]⟩ : Shape).Idx) :
    addf (matmul dB prec
          (truncf ψ (maximumf (addf (matmul dA prec (truncf ψ (addf x0 x1) hψ) (truncf ψ Wa hψ) (constant ⟨2, ![R, H]⟩ .f32 0x00000000#32))
              (broadcastTo ⟨2, ![R, H]⟩ Ba hbA)) (broadcast ⟨2, ![R, H]⟩ (Scalar.ofBits (F := Ideal) .f32 z))) hψ)
          (truncf ψ Wb hψ) (constant ⟨2, ![R, C]⟩ .f32 0x00000000#32))
        (broadcastTo ⟨2, ![R, C]⟩ Bb hbB) y
      = addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb) (eC y) :=
  output_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB y

end Cert.Lib.TwoLayerRows

end
-- ==== Proof.KernelBody.lean ====
/-
  What one grid point of each kernel computes, entry by entry.

  The body of the first kernel stores, from a block of 2000 rows of the features x and of the neighbour sums a,
  the rows  max(max((x + a)·Wa + ba, 0)·Wb + bb, 0) ; the body of the second stores  max((h + a)·Wa + ba, 0)·Wb + bb .
  Read at an entry y of the block, that is the whole-array perceptron of Spec.lean read at the entry of the array
  where y sits: the block is a run of consecutive rows, the weights and the biases are whole.
-/
import proofs.«103966_j32512902431423_1_alg».proof.Proof.Spec
import proofs.«103966_j32512902431423_1_alg».proof.Proof.LibTwoLayerRows
import proofs.«103966_j32512902431423_1_alg».proof.Proof.Gen.KernelIdeal.Skeleton

noncomputable section

namespace Cert.Gin.Body

open Idealize.ShloMosaic Idealize.ShloMosaic.ValueIdx Cert.KernelIdeal Cert.KernelIdeal.Gen
open Cert.Lib.TwoLayerRows Cert.Bridge

/-- The first kernel's stored block at an entry: the first perceptron of the whole arrays at the entry's place. -/
theorem first_apply (X A : FVec Ideal S100000x128 .f32) (Wa : FVec Ideal S128x256 .f32) (ba : FVec Ideal S256 .f32)
    (Wb : FVec Ideal S256x256 .f32) (bb : FVec Ideal S256 .f32)
    (x0 x1 : Vec Ideal S2000x128 .f32)
    (eK : S2000x128.Idx → S100000x128.Idx) (eC : S2000x256.Idx → S100000x256.Idx) (o : Nat)
    (hK : RowEmb eK o) (hC : RowEmb eC o)
    (hx0 : ∀ j, x0 j = X (eK j)) (hx1 : ∀ j, x1 j = A (eK j)) (y : S2000x256.Idx) :
    k0_pay1 (F := Ideal) x0 x1 Wa ba Wb bb y = Cert.Gin.mlpFirst X A Wa ba Wb bb (eC y) := by
  unfold k0_pay1 Cert.Gin.mlpFirst
  dsimp only
  rw [shapeCast_self,
    reshapeRow_eq ba shapeCasts_S256_S1x256 Cert.ReferenceIdeal.Gen.bcast_S256_S1x256_1,
    reshapeRow_eq bb shapeCasts_S256_S1x256 Cert.ReferenceIdeal.Gen.bcast_S256_S1x256_1]
  exact two_layers_max_block (ψ := .bf16) bitsLt_bf16_f32 _ rfl _ rfl _ rfl _ rfl none none X A Wa _ Wb _ x0 x1
    eK eC eC o hK hC hC hx0 hx1 _ _ _ _ _ _ 0x00000000#32 y

/-- The second kernel's stored block at an entry: the second perceptron of the whole arrays at the entry's place. -/
theorem second_apply (X A : FVec Ideal S100000x256 .f32) (Wa : FVec Ideal S256x256 .f32) (ba : FVec Ideal S256 .f32)
    (Wb : FVec Ideal S256x10 .f32) (bb : FVec Ideal S10 .f32)
    (x0 x1 : Vec Ideal S2000x256 .f32)
    (eK : S2000x256.Idx → S100000x256.Idx) (eC : S2000x10.Idx → S100000x10.Idx) (o : Nat)
    (hK : RowEmb eK o) (hC : RowEmb eC o)
    (hx0 : ∀ j, x0 j = X (eK j)) (hx1 : ∀ j, x1 j = A (eK j)) (y : S2000x10.Idx) :
    k1_pay1 (F := Ideal) x0 x1 Wa ba Wb bb y = Cert.Gin.mlpSecond X A Wa ba Wb bb (eC y) := by
  unfold k1_pay1 Cert.Gin.mlpSecond
  dsimp only
  rw [shapeCast_self, shapeCast_self,
    reshapeRow_eq ba shapeCasts_S256_S1x256 Cert.ReferenceIdeal.Gen.bcast_S256_S1x256_1,
    reshapeRow_eq bb shapeCasts_S10_S1x10 Cert.ReferenceIdeal.Gen.bcast_S10_S1x10_1]
  exact two_layers_block (ψ := .bf16) bitsLt_bf16_f32 _ rfl _ rfl _ rfl _ rfl none none X A Wa _ Wb _ x0 x1
    eK eK eC o hK hK hC hx0 hx1 _ _ _ _ _ 0x00000000#32 y

end Cert.Gin.Body

end
-- ==== Proof.KernelBlocks.lean ====
/-
  From blocks to arrays: what each kernel leaves in its output array.

  Grid point t of either kernel reads rows 2000·t … 2000·t + 1999 of its two row-blocked operands and the whole of
  its weights and biases, and writes rows 2000·t … 2000·t + 1999 of the output.  The fifty blocks tile the 100000
  rows, so the output array ends holding the whole-array perceptron of the arrays the kernel was entered with.
  Stated for any contents V of the buffers at the kernel's entry.
-/
import proofs.«103966_j32512902431423_1_alg».proof.Proof.KernelBody
import proofs.«103966_j32512902431423_1_alg».proof.Proof.Gen.KernelIdeal.Frame
import Idealize.ShloMosaic.Lib.Pipeline.Value

noncomputable section

namespace Cert.Gin.Blocks

open Idealize.ShloMosaic Idealize.ShloMosaic.TcCoe Idealize.SL.Sem
open Idealize.ShloMosaic.Pipeline (Dat)
open Cert.KernelIdeal Cert.KernelIdeal.Gen Cert.Lib.TwoLayerRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first kernel -/

/-- The printed index maps over the grid: the row-blocked windows sit at block row t, every other at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The weight matrix of the first layer is fetched whole. -/
theorem iblk0_2 (c : Dev nD) (t : Fin cfg0.N) : iblk0 V c 2 t = V c main_arg2 := by
  obtain ⟨-, -, -, -, e0, e1, -⟩ := idx_facts0 t
  funext j
  unfold iblk0
  rw [View.read_apply]
  show V c main_arg2 (((cfg0.win 2).blk t).view.emb j) = V c main_arg2 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 256 + 1 * (j 1).val = (j 1).val; omega

/-- The bias of the first layer is fetched whole. -/
theorem iblk0_3 (c : Dev nD) (t : Fin cfg0.N) : iblk0 V c 3 t = V c main_arg3 := by
  obtain ⟨-, -, -, -, -, -, e0, -⟩ := idx_facts0 t
  funext j
  unfold iblk0
  rw [View.read_apply]
  show V c main_arg3 (((cfg0.win 3).blk t).view.emb j) = V c main_arg3 j
  refine congrArg _ (funext fun a => Fin.ext ?_)
  match a with
  | ⟨0, _⟩ => show win0_3.index t (0 : Fin 1) * 256 + 1 * (j 0).val = (j 0).val; omega

/-- The weight matrix of the second layer is fetched whole. -/
theorem iblk0_4 (c : Dev nD) (t : Fin cfg0.N) : iblk0 V c 4 t = V c main_arg4 := by
  obtain ⟨-, -, -, -, -, -, -, e0, e1, -⟩ := idx_facts0 t
  funext j
  unfold iblk0
  rw [View.read_apply]
  show V c main_arg4 (((cfg0.win 4).blk t).view.emb j) = V c main_arg4 j
  refine congrArg _ (funext fun a => Fin.ext ?_)
  match a with
  | ⟨0, _⟩ => show win0_4.index t (0 : Fin 2) * 256 + 1 * (j 0).val = (j 0).val; omega
  | ⟨1, _⟩ => show win0_4.index t (1 : Fin 2) * 256 + 1 * (j 1).val = (j 1).val; omega

/-- The bias of the second layer is fetched whole. -/
theorem iblk0_5 (c : Dev nD) (t : Fin cfg0.N) : iblk0 V c 5 t = V c main_arg5 := by
  obtain ⟨-, -, -, -, -, -, -, -, -, e0, -⟩ := idx_facts0 t
  funext j
  unfold iblk0
  rw [View.read_apply]
  show V c main_arg5 (((cfg0.win 5).blk t).view.emb j) = V c main_arg5 j
  refine congrArg _ (funext fun a => Fin.ext ?_)
  match a with
  | ⟨0, _⟩ => show win0_5.index t (0 : Fin 1) * 256 + 1 * (j 0).val = (j 0).val; omega

/-- Where entry j of the 2000-row block of point t sits in a 100000-row array: row 2000·t + j₀, column j₁. -/
def place (C : Nat) (t : Nat) (ht : t < 50) (j : (⟨2, ![2000, C]⟩ : Shape).Idx) : (⟨2, ![100000, C]⟩ : Shape).Idx :=
  fun a => match a with
    | ⟨0, _⟩ => ⟨t * 2000 + (j 0).val, by have h : (j 0).val < 2000 := (j 0).isLt; show t * 2000 + (j 0).val < 100000; omega⟩
    | ⟨1, _⟩ => ⟨(j 1).val, (j 1).isLt⟩

theorem place_rowEmb (C : Nat) (t : Nat) (ht : t < 50) : RowEmb (place C t ht) (t * 2000) :=
  ⟨fun _ => rfl, fun _ => rfl⟩

/-- The features' block at point t. -/
theorem iblk0_0 (c : Dev nD) (t : Fin cfg0.N) (ht : t.val < 50) (j : S2000x128.Idx) :
    (iblk0 V c 0 t : Vec Ideal S2000x128 .f32) j = (V c main_arg0 : S100000x128.Idx → EReal) (place 128 t.val ht j) := by
  obtain ⟨e0, e1, -⟩ := idx_facts0 t
  unfold iblk0
  rw [View.read_apply]
  show V c main_arg0 (((cfg0.win 0).blk t).view.emb j) = V c main_arg0 _
  refine congrArg _ (funext fun a => Fin.ext ?_)
  match a with
  | ⟨0, _⟩ => show win0_0.index t (0 : Fin 2) * 2000 + 1 * (j 0).val = t.val * 2000 + (j 0).val; omega
  | ⟨1, _⟩ => show win0_0.index t (1 : Fin 2) * 128 + 1 * (j 1).val = (j 1).val; omega

/-- The neighbour sums' block at point t. -/
theorem iblk0_1 (c : Dev nD) (t : Fin cfg0.N) (ht : t.val < 50) (j : S2000x128.Idx) :
    (iblk0 V c 1 t : Vec Ideal S2000x128 .f32) j = (V c main_v13 : S100000x128.Idx → EReal) (place 128 t.val ht j) := by
  obtain ⟨-, -, e0, e1, -⟩ := idx_facts0 t
  unfold iblk0
  rw [View.read_apply]
  show V c main_v13 (((cfg0.win 1).blk t).view.emb j) = V c main_v13 _
  refine congrArg _ (funext fun a => Fin.ext ?_)
  match a with
  | ⟨0, _⟩ => show win0_1.index t (0 : Fin 2) * 2000 + 1 * (j 0).val = t.val * 2000 + (j 0).val; omega
  | ⟨1, _⟩ => show win0_1.index t (1 : Fin 2) * 128 + 1 * (j 1).val = (j 1).val; omega

/-- The hidden features as the first kernel's entry contents give them. -/
abbrev hiddenOf (c : Dev nD) : S100000x256.Idx → EReal :=
  Cert.Gin.mlpFirst (V c main_arg0) (V c main_v13) (V c main_arg2) (V c main_arg3) (V c main_arg4) (V c main_arg5)

/-- What point t writes back is block t of the hidden features. -/
theorem flushed0_eq (c : Dev nD) (t : Fin cfg0.N) :
    (dat0 V c).flushed 6 t = ((cfg0.win 6).blk t).view.read (Elt Ideal) (hiddenOf V c) := by
  have hN : cfg0.N = 50 := N_0
  have ht : t.val < 50 := by have := t.isLt; omega
  obtain ⟨-, -, -, -, -, -, -, -, -, -, e0, e1⟩ := idx_facts0 t
  show (cfg0.win 6).cut (grid0.coords t) ((dat0 V c).after 6 t) = _
  rw [after0_6]
  unfold out0_6
  rw [View.canon_unit_zero hz2]
  simp only [View.ld_unit_zero (S := S2000x128) hz2, View.ld_unit_zero (S := S128x256) hz2,
    View.ld_unit_zero (S := S256x256) hz2, View.ld_unit_zero (S := S256) hz1]
  rw [iblk0_2, iblk0_3, iblk0_4, iblk0_5]
  funext y
  rw [View.read_apply]
  refine (Cert.Gin.Body.first_apply (V c main_arg0) (V c main_v13) (V c main_arg2) (V c main_arg3) (V c main_arg4) (V c main_arg5)
    (iblk0 V c 0 t) (iblk0 V c 1 t) (place 128 t.val ht) (place 256 t.val ht) (t.val * 2000)
    (place_rowEmb 128 t.val ht) (place_rowEmb 256 t.val ht) (iblk0_0 V c t ht) (iblk0_1 V c t ht) y).trans ?_
  show hiddenOf V c (place 256 t.val ht y) = hiddenOf V c (((cfg0.win 6).blk t).view.emb y)
  refine congrArg _ (funext fun a => Fin.ext ?_)
  match a with
  | ⟨0, _⟩ => show t.val * 2000 + (y 0).val = win0_6.index t (0 : Fin 2) * 2000 + 1 * (y 0).val; omega
  | ⟨1, _⟩ => show (y 1).val = win0_6.index t (1 : Fin 2) * 256 + 1 * (y 1).val; omega

/-- Every entry of the hidden array lies in the block of the point its row falls in. -/
theorem cover0 (i : S100000x256.Idx) :
    ∃ t : Fin cfg0.N, (cfg0.win 6).flush t = true ∧ i ∈ ((cfg0.win 6).blk t).view.set := by
  have hN : cfg0.N = 50 := N_0
  have hi0 : (i 0).val < 100000 := (i 0).isLt
  have hi1 : (i 1).val < 256 := (i 1).isLt
  have htl : (i 0).val / 2000 < cfg0.N := by rw [hN]; omega
  obtain ⟨-, -, -, -, -, -, -, -, -, -, e0, e1⟩ := idx_facts0 ⟨(i 0).val / 2000, htl⟩
  refine ⟨⟨(i 0).val / 2000, htl⟩, flush0_6 _, ?_⟩
  show i ∈ ((View.whole main_v14).slice (win0_6.rect ⟨(i 0).val / 2000, htl⟩)).set
  rw [View.set_slice_whole, Rect.mem_set_unit]
  intro a
  match a with
  | ⟨0, _⟩ =>
    show win0_6.index ⟨(i 0).val / 2000, htl⟩ (0 : Fin 2) * 2000 ≤ (i 0).val
      ∧ (i 0).val < win0_6.index ⟨(i 0).val / 2000, htl⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, htl⟩ (1 : Fin 2) * 256 ≤ (i 1).val
      ∧ (i 1).val < win0_6.index ⟨(i 0).val / 2000, htl⟩ (1 : Fin 2) * 256 + 256
    rw [e1]; omega

/-- THE HIDDEN ARRAY after the first kernel: the first perceptron of the arrays the kernel was entered with. -/
theorem final0 (c : Dev nD) : (dat0 V c).arrAt 6 cfg0.N = hiddenOf V c :=
  (dat0 V c).arrAt_eq_of_cover 6 (hiddenOf V c) (fun t _ => flushed0_eq V c t) (cover0)

/-! ## The second kernel -/

/-- The printed index maps over the grid: the row-blocked windows sit at block row t, every other at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The weight matrix of the first layer is fetched whole. -/
theorem iblk1_2 (c : Dev nD) (t : Fin cfg1.N) : iblk1 V c 2 t = V c main_arg6 := by
  obtain ⟨-, -, -, -, e0, e1, -⟩ := idx_facts1 t
  funext j
  unfold iblk1
  rw [View.read_apply]
  show V c main_arg6 (((cfg1.win 2).blk t).view.emb j) = V c main_arg6 j
  refine congrArg _ (funext fun a => Fin.ext ?_)
  match a with
  | ⟨0, _⟩ => show win1_2.index t (0 : Fin 2) * 256 + 1 * (j 0).val = (j 0).val; omega
  | ⟨1, _⟩ => show win1_2.index t (1 : Fin 2) * 256 + 1 * (j 1).val = (j 1).val; omega

/-- The bias of the first layer is fetched whole. -/
theorem iblk1_3 (c : Dev nD) (t : Fin cfg1.N) : iblk1 V c 3 t = V c main_arg7 := by
  obtain ⟨-, -, -, -, -, -, e0, -⟩ := idx_facts1 t
  funext j
  unfold iblk1
  rw [View.read_apply]
  show V c main_arg7 (((cfg1.win 3).blk t).view.emb j) = V c main_arg7 j
  refine congrArg _ (funext fun a => Fin.ext ?_)
  match a with
  | ⟨0, _⟩ => show win1_3.index t (0 : Fin 1) * 256 + 1 * (j 0).val = (j 0).val; omega

/-- The weight matrix of the second layer is fetched whole. -/
theorem iblk1_4 (c : Dev nD) (t : Fin cfg1.N) : iblk1 V c 4 t = V c main_arg8 := by
  obtain ⟨-, -, -, -, -, -, -, e0, e1, -⟩ := idx_facts1 t
  funext j
  unfold iblk1
  rw [View.read_apply]
  show V c main_arg8 (((cfg1.win 4).blk t).view.emb j) = V c main_arg8 j
  refine congrArg _ (funext fun a => Fin.ext ?_)
  match a with
  | ⟨0, _⟩ => show win1_4.index t (0 : Fin 2) * 256 + 1 * (j 0).val = (j 0).val; omega
  | ⟨1, _⟩ => show win1_4.index t (1 : Fin 2) * 10 + 1 * (j 1).val = (j 1).val; omega

/-- The bias of the second layer is fetched whole. -/
theorem iblk1_5 (c : Dev nD) (t : Fin cfg1.N) : iblk1 V c 5 t = V c main_arg9 := by
  obtain ⟨-, -, -, -, -, -, -, -, -, e0, -⟩ := idx_facts1 t
  funext j
  unfold iblk1
  rw [View.read_apply]
  show V c main_arg9 (((cfg1.win 5).blk t).view.emb j) = V c main_arg9 j
  refine congrArg _ (funext fun a => Fin.ext ?_)
  match a with
  | ⟨0, _⟩ => show win1_5.index t (0 : Fin 1) * 10 + 1 * (j 0).val = (j 0).val; omega

/-- The hidden features' block at point t. -/
theorem iblk1_0 (c : Dev nD) (t : Fin cfg1.N) (ht : t.val < 50) (j : S2000x256.Idx) :
    (iblk1 V c 0 t : Vec Ideal S2000x256 .f32) j = (V c main_v14 : S100000x256.Idx → EReal) (place 256 t.val ht j) := by
  obtain ⟨e0, e1, -⟩ := idx_facts1 t
  unfold iblk1
  rw [View.read_apply]
  show V c main_v14 (((cfg1.win 0).blk t).view.emb j) = V c main_v14 _
  refine congrArg _ (funext fun a => Fin.ext ?_)
  match a with
  | ⟨0, _⟩ => show win1_0.index t (0 : Fin 2) * 2000 + 1 * (j 0).val = t.val * 2000 + (j 0).val; omega
  | ⟨1, _⟩ => show win1_0.index t (1 : Fin 2) * 256 + 1 * (j 1).val = (j 1).val; omega

/-- The neighbour sums' block at point t. -/
theorem iblk1_1 (c : Dev nD) (t : Fin cfg1.N) (ht : t.val < 50) (j : S2000x256.Idx) :
    (iblk1 V c 1 t : Vec Ideal S2000x256 .f32) j = (V c main_v24 : S100000x256.Idx → EReal) (place 256 t.val ht j) := by
  obtain ⟨-, -, e0, e1, -⟩ := idx_facts1 t
  unfold iblk1
  rw [View.read_apply]
  show V c main_v24 (((cfg1.win 1).blk t).view.emb j) = V c main_v24 _
  refine congrArg _ (funext fun a => Fin.ext ?_)
  match a with
  | ⟨0, _⟩ => show win1_1.index t (0 : Fin 2) * 2000 + 1 * (j 0).val = t.val * 2000 + (j 0).val; omega
  | ⟨1, _⟩ => show win1_1.index t (1 : Fin 2) * 256 + 1 * (j 1).val = (j 1).val; omega

/-- The output scores as the second kernel's entry contents give them. -/
abbrev scoresOf (c : Dev nD) : S100000x10.Idx → EReal :=
  Cert.Gin.mlpSecond (V c main_v14) (V c main_v24) (V c main_arg6) (V c main_arg7) (V c main_arg8) (V c main_arg9)

/-- What point t writes back is block t of the output scores. -/
theorem flushed1_eq (c : Dev nD) (t : Fin cfg1.N) :
    (dat1 V c).flushed 6 t = ((cfg1.win 6).blk t).view.read (Elt Ideal) (scoresOf V c) := by
  have hN : cfg1.N = 50 := N_1
  have ht : t.val < 50 := by have := t.isLt; omega
  obtain ⟨-, -, -, -, -, -, -, -, -, -, e0, e1⟩ := idx_facts1 t
  show (cfg1.win 6).cut (grid1.coords t) ((dat1 V c).after 6 t) = _
  rw [after1_6]
  unfold out1_6
  rw [View.canon_unit_zero hz2]
  simp only [View.ld_unit_zero (S := S2000x256) hz2, View.ld_unit_zero (S := S256x256) hz2,
    View.ld_unit_zero (S := S256x10) hz2, View.ld_unit_zero (S := S256) hz1, View.ld_unit_zero (S := S10) hz1]
  rw [iblk1_2, iblk1_3, iblk1_4, iblk1_5]
  funext y
  rw [View.read_apply]
  refine (Cert.Gin.Body.second_apply (V c main_v14) (V c main_v24) (V c main_arg6) (V c main_arg7) (V c main_arg8) (V c main_arg9)
    (iblk1 V c 0 t) (iblk1 V c 1 t) (place 256 t.val ht) (place 10 t.val ht) (t.val * 2000)
    (place_rowEmb 256 t.val ht) (place_rowEmb 10 t.val ht) (iblk1_0 V c t ht) (iblk1_1 V c t ht) y).trans ?_
  show scoresOf V c (place 10 t.val ht y) = scoresOf V c (((cfg1.win 6).blk t).view.emb y)
  refine congrArg _ (funext fun a => Fin.ext ?_)
  match a with
  | ⟨0, _⟩ => show t.val * 2000 + (y 0).val = win1_6.index t (0 : Fin 2) * 2000 + 1 * (y 0).val; omega
  | ⟨1, _⟩ => show (y 1).val = win1_6.index t (1 : Fin 2) * 10 + 1 * (y 1).val; omega

/-- Every entry of the output array lies in the block of the point its row falls in. -/
theorem cover1 (i : S100000x10.Idx) :
    ∃ t : Fin cfg1.N, (cfg1.win 6).flush t = true ∧ i ∈ ((cfg1.win 6).blk t).view.set := by
  have hN : cfg1.N = 50 := N_1
  have hi0 : (i 0).val < 100000 := (i 0).isLt
  have hi1 : (i 1).val < 10 := (i 1).isLt
  have htl : (i 0).val / 2000 < cfg1.N := by rw [hN]; omega
  obtain ⟨-, -, -, -, -, -, -, -, -, -, e0, e1⟩ := idx_facts1 ⟨(i 0).val / 2000, htl⟩
  refine ⟨⟨(i 0).val / 2000, htl⟩, flush1_6 _, ?_⟩
  show i ∈ ((View.whole main_v25).slice (win1_6.rect ⟨(i 0).val / 2000, htl⟩)).set
  rw [View.set_slice_whole, Rect.mem_set_unit]
  intro a
  match a with
  | ⟨0, _⟩ =>
    show win1_6.index ⟨(i 0).val / 2000, htl⟩ (0 : Fin 2) * 2000 ≤ (i 0).val
      ∧ (i 0).val < win1_6.index ⟨(i 0).val / 2000, htl⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, htl⟩ (1 : Fin 2) * 10 ≤ (i 1).val
      ∧ (i 1).val < win1_6.index ⟨(i 0).val / 2000, htl⟩ (1 : Fin 2) * 10 + 10
    rw [e1]; omega

/-- THE OUTPUT ARRAY after the second kernel: the second perceptron of the arrays the kernel was entered with. -/
theorem final1 (c : Dev nD) : (dat1 V c).arrAt 6 cfg1.N = scoresOf V c :=
  (dat1 V c).arrAt_eq_of_cover 6 (scoresOf V c) (fun t _ => flushed1_eq V c t) (cover1)

end Cert.Gin.Blocks

end
-- ==== Proof.KernelStages.lean ====
/-
  The arrays each kernel is entered with, and the program's result, as functions of the arguments.

  Before the first kernel the host gathers the rows x[src e] and scatter-adds them at dst e: the first kernel
  is entered with x, that neighbour sum, and the first layer's weights.  It leaves the hidden features; the host
  forms their neighbour sum with the same edge columns; the second kernel is entered with the hidden features,
  that sum, and the second layer's weights, and leaves the result.  Read back to the launch memory, the result is
  the network of Spec.lean of the argument arrays.
-/
import proofs.«103966_j32512902431423_1_alg».proof.Proof.KernelBlocks

noncomputable section

namespace Cert.Gin.Stages

open Idealize.ShloMosaic Idealize.ShloMosaic.TcCoe Idealize.SL.Sem Idealize.ShloMosaic.StableHlo
open Cert.KernelIdeal Cert.KernelIdeal.Gen Cert.Gin.Blocks

variable (m : (ℓ : Loc nD τ sig) → Buf (Elt Ideal) ℓ) (ρ : Dev nD → PrngReg)

/-! ## Entering the first kernel -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl

/-- The neighbour sum the first kernel is entered with. -/
theorem V1_v13 (c : Dev nD) :
    (V1 m ρ c main_v13 : S100000x128.Idx → EReal)
      = Cert.Gin.nbrSum128 (m ((c : Thread nD τ).loc main_arg0)) (m ((c : Thread nD τ).loc main_arg1)) := by
  show StableHlo.after hostOps0 (W0 m ρ c) (Proc.devRef .tc main_v13) = _
  after_results <;> rfl

/-- The two edge rows as the first host stretch leaves them. -/
theorem W1_v1 (c : Dev nD) :
    (W1 m ρ c (Proc.devRef .tc main_v1) : S640000.Idx → BitVec 32)
      = shapeCast _ (extractStridedSlice S1x640000 ![0, 0] (m ((c : Thread nD τ).loc main_arg1)) slices_S2x640000_S1x640000_0_0) shapeCasts_S1x640000_S640000 := by
  show StableHlo.after hostOps0 (W0 m ρ c) (Proc.devRef .tc main_v1) = _
  after_results <;> rfl
theorem W1_v3 (c : Dev nD) :
    (W1 m ρ c (Proc.devRef .tc main_v3) : S640000.Idx → BitVec 32)
      = shapeCast _ (extractStridedSlice S1x640000 ![1, 0] (m ((c : Thread nD τ).loc main_arg1)) slices_S2x640000_S1x640000_1_0) shapeCasts_S1x640000_S640000 := by
  show StableHlo.after hostOps0 (W0 m ρ c) (Proc.devRef .tc main_v3) = _
  after_results <;> rfl

/-! ## The hidden features -/

/-- The hidden features, of the arguments. -/
abbrev hid (c : Dev nD) : S100000x256.Idx → EReal :=
  Cert.Gin.hidden (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The first kernel leaves the hidden features in its output array. -/
theorem W2_v14 (c : Dev nD) : (W2 m ρ c (Proc.devRef .tc main_v14) : S100000x256.Idx → EReal) = hid m c := by
  refine ((W2_arr m ρ c 6).trans (final0 (V1 m ρ) c)).trans ?_
  unfold hiddenOf
  rw [V1_arg0, V1_v13, V1_arg2, V1_arg3, V1_arg4, V1_arg5]
  rfl

/-! ## Entering the second kernel -/

theorem V3_v14 (c : Dev nD) : (V3 m ρ c main_v14 : S100000x256.Idx → EReal) = hid m c := by
  refine Eq.trans ?_ (W2_v14 m ρ c)
  show StableHlo.after hostOps1 (W2 m ρ c) (Proc.devRef .tc main_v14) = _
  after_results <;> rfl

/-- The neighbour sum the second kernel is entered with. -/
theorem V3_v24 (c : Dev nD) :
    (V3 m ρ c main_v24 : S100000x256.Idx → EReal) = Cert.Gin.nbrSum256 (hid m c) (m ((c : Thread nD τ).loc main_arg1)) := by
  show StableHlo.after hostOps1 (W2 m ρ c) (Proc.devRef .tc main_v24) = _
  after_results
  rw [W2_of_ne m ρ c main_v1 (by decide), W2_of_ne m ρ c main_v3 (by decide), W2_v14, W1_v1, W1_v3]
  rfl

theorem V3_arg6 (c : Dev nD) : V3 m ρ c main_arg6 = m ((c : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results <;> rfl
theorem V3_arg7 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results <;> rfl
theorem V3_arg8 (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results <;> rfl
theorem V3_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results <;> rfl

/-! ## The result -/

/-- The network of the arguments on core c. -/
abbrev netOf (c : Dev nD) : S100000x10.Idx → EReal :=
  Cert.Gin.net (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

/-- The second kernel leaves the network of the arguments in the result array. -/
theorem W4_v25 (c : Dev nD) : (W4 m ρ c (Proc.devRef .tc main_v25) : S100000x10.Idx → EReal) = netOf m c := by
  refine ((W4_arr m ρ c 6).trans (final1 (V3 m ρ) c)).trans ?_
  unfold scoresOf
  rw [V3_v14, V3_v24, V3_arg6, V3_arg7, V3_arg8, V3_arg9]
  rfl

end Cert.Gin.Stages

end
-- ==== Proof.lean ====
/-
  A two-layer graph network (GIN): the kernel program against its jnp reference, on the extended reals.

  Both programs compute, for node features x and an edge list, twice over: the sum of each node's in-neighbours'
  rows (gather at the source column, scatter-add at the destination column), added to the node's own row, through
  a perceptron  max(z·Wa + ba, 0)·Wb + bb ; the first layer ends in a further max with 0.  The kernel program
  leaves the neighbour sums to the same host operations as the reference and runs each perceptron as a kernel over
  fifty blocks of 2000 rows, its matrix products on operands narrowed to bf16 — the identity on the extended reals —
  into a zero accumulator.  A matrix product of a row block with the whole weights is the row block of the whole
  product, so each kernel's output array is the whole-array perceptron (KernelBody, KernelBlocks), the arrays each
  kernel is entered with are read back to the arguments (KernelStages), and the result is Spec.lean's `net` of the
  arguments — which is what the reference's composed term unfolds to (RefSide).  No entry needs to be finite: no law
  beyond reading both sides at an entry is used.
-/
import proofs.«103966_j32512902431423_1_alg».proof.Defs
import proofs.«103966_j32512902431423_1_alg».proof.Proof.Gen.Kernel
import proofs.«103966_j32512902431423_1_alg».proof.Proof.Gen.Kernel.Skeleton
import proofs.«103966_j32512902431423_1_alg».proof.Proof.Gen.Kernel.Launch
import proofs.«103966_j32512902431423_1_alg».proof.Proof.Gen.Kernel.Points
import proofs.«103966_j32512902431423_1_alg».proof.Proof.Gen.Kernel.Frame
import proofs.«103966_j32512902431423_1_alg».proof.Proof.Gen.KernelIdeal
import proofs.«103966_j32512902431423_1_alg».proof.Proof.Gen.KernelIdeal.Skeleton
import proofs.«103966_j32512902431423_1_alg».proof.Proof.Gen.KernelIdeal.Launch
import proofs.«103966_j32512902431423_1_alg».proof.Proof.Gen.KernelIdeal.Points
import proofs.«103966_j32512902431423_1_alg».proof.Proof.Gen.KernelIdeal.Frame
import proofs.«103966_j32512902431423_1_alg».proof.Proof.Gen.ReferenceIdeal
import proofs.«103966_j32512902431423_1_alg».proof.Proof.Gen.ReferenceIdeal.Run
import proofs.«103966_j32512902431423_1_alg».proof.Proof.Gen.Pre_finite_inputs
import proofs.«103966_j32512902431423_1_alg».proof.Proof.RefSide
import proofs.«103966_j32512902431423_1_alg».proof.Proof.KernelRun
import proofs.«103966_j32512902431423_1_alg».proof.Proof.KernelStages
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the arguments in their result. -/
theorem algebraic : Cert.algebraic_KernelIdeal_ReferenceIdeal := by
  intro m ρ m' ρ' _ hagree
  refine ⟨fun c => Cert.Gin.Stages.netOf m c, ?_, ?_⟩
  · exact (θ_run Cert.KernelIdeal.defs _ _).mono
      (fun r h c => ⟨(Cert.Gin.Run.result_eq m ρ r h c).trans (Cert.Gin.Stages.W4_v25 m ρ c), Cert.Gin.Run.args_eq m ρ r h c⟩)
      (Cert.Gin.Run.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.Gin.reference_eq m' c]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
